-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S8x2048 : Shape := ⟨2, ![8, 2048]⟩
abbrev S4096x64 : Shape := ⟨2, ![4096, 64]⟩
abbrev S64x4096 : Shape := ⟨2, ![64, 4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S8x2048 : S_.BroadcastsInDim S8x2048 (![] : Fin 0 → Fin S8x2048.rank)
  reducesTo_S8x2048_S_d0_1 : S8x2048.ReducesTo [0, 1] S_
  bcast_S_S4096x64 : S_.BroadcastsInDim S4096x64 (![] : Fin 0 → Fin S4096x64.rank)
  reducesTo_S4096x64_S_d0_1 : S4096x64.ReducesTo [0, 1] S_
  bcast_S_S64x4096 : S_.BroadcastsInDim S64x4096 (![] : Fin 0 → Fin S64x4096.rank)
  reducesTo_S64x4096_S_d0_1 : S64x4096.ReducesTo [0, 1] S_

variable [Facts]

def fn_part1 {F : FTy → Type} [FloatOps F] (main_v13 : IVec S_ 1) (main_v16 : IVec S64x4096 1) : IVec S_ 1 :=
  let main_c_5 : IVec S_ 1 := constantI S_ 1 1#1
  let main_v17 : IVec S_ 1 := (fun x v => Host.reduce IntOp.andi x v reducesTo_S64x4096_S_d0_1 h_S_) main_v16 main_c_5
  let main_v18 : IVec S_ 1 := andi main_v13 main_v17
  main_v18

def fn {F : FTy → Type} [FloatOps F] (main_arg0 : FVec F S8x2048x4096 .f32) (main_arg1 : FVec F S8x2048 .f32) (main_arg2 : FVec F S4096x64 .f32) (main_arg3 : FVec F S64x4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S8x2048 .f32 := Host.absf main_arg1
  let main_cst_0 : FVec F S_ .f32 := constant S_ .f32 0x7F800000#32
  let main_v5 : FVec F S8x2048 .f32 := broadcastInDim S8x2048 ![] bcast_S_S8x2048 main_cst_0
  let main_v6 : IVec S8x2048 1 := cmpf .olt main_v4 main_v5
  let main_c_1 : IVec S_ 1 := constantI S_ 1 1#1
  let main_v7 : IVec S_ 1 := (fun x v => Host.reduce IntOp.andi x v reducesTo_S8x2048_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S64x4096 .f32 := Host.absf main_arg3
  let main_cst_4 : FVec F S_ .f32 := constant S_ .f32 0x7F800000#32
  let main_v15 : FVec F S64x4096 .f32 := broadcastInDim S64x4096 ![] bcast_S_S64x4096 main_cst_4
  let main_v16 : IVec S64x4096 1 := cmpf .olt main_v14 main_v15
  fn_part1 (F := F) main_v13 main_v16
-- ==== Kernel.lean ====
abbrev S8x2048x4096 : Shape := ⟨3, ![8, 2048, 4096]⟩
abbrev S8x2048 : Shape := ⟨2, ![8, 2048]⟩
abbrev S4096x64 : Shape := ⟨2, ![4096, 64]⟩
abbrev S64x4096 : Shape := ⟨2, ![64, 4096]⟩
abbrev S16384x4096 : Shape := ⟨2, ![16384, 4096]⟩
abbrev S16384x1 : Shape := ⟨2, ![16384, 1]⟩
abbrev S256x4096 : Shape := ⟨2, ![256, 4096]⟩
abbrev S256x1 : Shape := ⟨2, ![256, 1]⟩
abbrev S256x64 : Shape := ⟨2, ![256, 64]⟩

abbrev nBuf : Space → Nat
  | .hbm => 10
  | .vmem => 8
  | .smem => 0
  | _ => 0

abbrev bufTy : (tb : Table) → Fin (tcTables nBuf tb) → BufTy
  | .hbm, ⟨0, _⟩ => ⟨S8x2048x4096, .f32⟩
  | .hbm, ⟨1, _⟩ => ⟨S8x2048, .f32⟩
  | .hbm, ⟨2, _⟩ => ⟨S4096x64, .f32⟩
  | .hbm, ⟨3, _⟩ => ⟨S64x4096, .f32⟩
  | .hbm, ⟨4, _⟩ => ⟨S16384x4096, .f32⟩
  | .hbm, ⟨5, _⟩ => ⟨S16384x1, .f32⟩
  | .hbm, ⟨6, _⟩ => ⟨S4096x64, .bf16⟩
  | .hbm, ⟨7, _⟩ => ⟨S64x4096, .bf16⟩
  | .hbm, ⟨8, _⟩ => ⟨S16384x4096, .f32⟩
  | .hbm, ⟨9, _⟩ => ⟨S8x2048x4096, .f32⟩
  | .local _ .vmem, ⟨0, _⟩ => ⟨S256x4096, .f32⟩
  | .local _ .vmem, ⟨1, _⟩ => ⟨S256x4096, .f32⟩
  | .local _ .vmem, ⟨2, _⟩ => ⟨S256x1, .f32⟩
  | .local _ .vmem, ⟨3, _⟩ => ⟨S256x1, .f32⟩
  | .local _ .vmem, ⟨4, _⟩ => ⟨S4096x64, .bf16⟩
  | .local _ .vmem, ⟨5, _⟩ => ⟨S64x4096, .bf16⟩
  | .local _ .vmem, ⟨6, _⟩ => ⟨S256x4096, .f32⟩
  | .local _ .vmem, ⟨7, _⟩ => ⟨S256x4096, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x2048x4096_S16384x4096 : S8x2048x4096.ShapeCasts S16384x4096
  shapeCasts_S8x2048_S16384x1 : S8x2048.ShapeCasts S16384x1
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x64 : S256x1.Broadcasts S256x64
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  shapeCasts_S16384x4096_S8x2048x4096 : S16384x4096.ShapeCasts S8x2048x4096
  dot_S256x4096_S4096x64_S256x64_1_0_0_1_n_n_wf : DotDims.WF S256x4096 S4096x64 S256x64 [1] [0] [0] [1] [] []
  dot_S256x64_S64x4096_S256x4096_1_0_0_1_n_n_wf : DotDims.WF S256x64 S64x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S16384x1.size a
  hwx0_1 : ∀ i : grid0.Coords, EltTy.bits .f32 = 32 ∨ (Rect.block (s := S16384x1) S256x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S4096x64.size a
  hwx0_2 : ∀ i : grid0.Coords, EltTy.bits .bf16 = 32 ∨ (Rect.block (s := S4096x64) S4096x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x4096.size a ≤ S64x4096.size a
  hwx0_3 : ∀ i : grid0.Coords, EltTy.bits .bf16 = 32 ∨ (Rect.block (s := S64x4096) S64x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S16384x4096.size a
  hwx0_4 : ∀ i : grid0.Coords, EltTy.bits .f32 = 32 ∨ (Rect.block (s := S16384x4096) S256x4096.size (cc0_transform_4 i) (hinb0_4 i)).WholeWords (EltTy.packing .f32)

variable [Facts₀]

def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf
def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S8x2048 : Shape := ⟨2, ![8, 2048]⟩
abbrev S4096x64 : Shape := ⟨2, ![4096, 64]⟩
abbrev S64x4096 : Shape := ⟨2, ![64, 4096]⟩
abbrev S8x2048x64 : Shape := ⟨3, ![8, 2048, 64]⟩
abbrev S_ : Shape := ⟨0, ![]⟩
abbrev S8x2048x1 : Shape := ⟨3, ![8, 2048, 1]⟩

abbrev nBuf : Space → Nat
  | .hbm => 12
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S8x2048, .f32⟩
  | .hbm, ⟨2, _⟩ => ⟨S4096x64, .f32⟩
  | .hbm, ⟨3, _⟩ => ⟨S64x4096, .f32⟩
  | .hbm, ⟨4, _⟩ => ⟨S8x2048x64, .f32⟩
  | .hbm, ⟨5, _⟩ => ⟨S8x2048x4096, .f32⟩
  | .hbm, ⟨6, _⟩ => ⟨S_, .f32⟩
  | .hbm, ⟨7, _⟩ => ⟨S8x2048x4096, .f32⟩
  | .hbm, ⟨8, _⟩ => ⟨S8x2048x4096, .f32⟩
  | .hbm, ⟨9, _⟩ => ⟨S8x2048x1, .f32⟩
  | .hbm, ⟨10, _⟩ => ⟨S8x2048x4096, .f32⟩
  | .hbm, ⟨11, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S_S8x2048x4096 : S_.BroadcastsInDim S8x2048x4096 (![] : Fin 0 → Fin S8x2048x4096.rank)
  bcast_S8x2048_S8x2048x1_0_1 : S8x2048.BroadcastsInDim S8x2048x1 (![0, 1] : Fin 2 → Fin S8x2048x1.rank)
  bcast_S8x2048x1_S8x2048x4096_0_1_2 : S8x2048x1.BroadcastsInDim S8x2048x4096 (![0, 1, 2] : Fin 3 → Fin S8x2048x4096.rank)
  dot_S8x2048x4096_S4096x64_S8x2048x64_2_0_01_1_n_n_wf : DotDims.WF S8x2048x4096 S4096x64 S8x2048x64 [2] [0] [0, 1] [1] [] []
  dot_S8x2048x64_S64x4096_S8x2048x4096_2_0_01_1_n_n_wf : DotDims.WF S8x2048x64 S64x4096 S8x2048x4096 [2] [0] [0, 1] [1] [] []

variable [Facts₀]

def dot_S8x2048x4096_S4096x64_S8x2048x64_2_0_01_1_n_n : DotDims S8x2048x4096 S4096x64 S8x2048x64 where
  lhsContracting := [2]
  rhsContracting := [0]
  lhsNonContracting := [0, 1]
  rhsNonContracting := [1]
  lhsBatch := []
  rhsBatch := []
  wf := dot_S8x2048x4096_S4096x64_S8x2048x64_2_0_01_1_n_n_wf
def dot_S8x2048x64_S64x4096_S8x2048x4096_2_0_01_1_n_n : DotDims S8x2048x64 S64x4096 S8x2048x4096 where
  lhsContracting := [2]
  rhsContracting := [0]
  lhsNonContracting := [0, 1]
  rhsNonContracting := [1]
  lhsBatch := []
  rhsBatch := []
  wf := dot_S8x2048x64_S64x4096_S8x2048x4096_2_0_01_1_n_n_wf

class Facts : Prop extends Facts₀ where

variable [Facts]
-- ==== Proof.Finite.lean ====
/-
  From the precondition to "every entry is a real number".

  The precondition is the conjunction, over the four argument arrays, of `all (|a| < +∞)`. Read at its one index,
  the conjunction splits; an `all` that is true is true at every index; and an extended real whose absolute value
  `max a (-a)` is below `+∞` is neither infinity, so it is (the coercion of) a real number.
-/
import proofs.«162528_j77893526880533_2_alg».proof.Pre_finite_inputs
import Idealize.ShloMosaic.PureOps.Ideal
import Idealize.ShloMosaic.Lib.ReduceAll
import Idealize.ShloMosaic.Lib.ValueIdx
import Idealize.ShloMosaic.Lib.Pipeline.Value

noncomputable section

open Idealize.ShloMosaic

namespace Cert.RowScale

open Cert.Pre_finite_inputs

/-- The scalar shape has one index. -/
instance : Subsingleton S_.Idx := ⟨fun a b => funext fun d => d.elim0⟩

/-- The f32 word `0x7F800000` is `+∞`. -/
theorem inf_eq : Ideal.ofBits .f32 0x7F800000#32 = (⊤ : EReal) := by
  simp [Ideal.ofBits, Ideal.ieee]

/-- An extended real whose absolute value is below `+∞` is a real number. -/
theorem real_of_abs_lt_inf (x : EReal)
    (h : Ideal.cmp .olt (max x (-x)) (Ideal.ofBits .f32 0x7F800000#32) = 1#1) : ∃ r : ℝ, x = (r : EReal) := by
  rw [inf_eq] at h
  induction x using EReal.rec with
  | bot => simp [Ideal.cmp] at h
  | coe r => exact ⟨r, rfl⟩
  | top => simp [Ideal.cmp] at h

/-- One element of the comparison `|a| < splat(+∞)` being true says that element of `a` is a real number. -/
theorem real_of_elem {s : Shape} (a : FVec Ideal s .f32) (hb : S_.BroadcastsInDim s (![] : Fin 0 → Fin s.rank)) (i : s.Idx)
    (h : cmpf .olt (Host.absf a) (broadcastInDim s ![] hb (constant (F := Ideal) S_ .f32 0x7F800000#32)) i = 1#1) :
    ∃ r : ℝ, a i = (r : EReal) := by
  refine real_of_abs_lt_inf (a i) ?_
  rw [← h]
  show _ = FloatOps.cmpf .olt (Host.absf a i) (broadcastInDim s ![] hb (constant (F := Ideal) S_ .f32 0x7F800000#32) i)
  rw [broadcastInDim_apply _ hb _ i ValueIdx.ix0 (fun a => a.elim0)]
  rfl

variable [Cert.Pre_finite_inputs.Facts]

/-- The precondition, at the extended reals, says each of the four arrays holds real numbers only. -/
theorem real_of_pre (a0 : FVec Ideal S8x2048x4096 .f32) (a1 : FVec Ideal S8x2048 .f32)
    (a2 : FVec Ideal S4096x64 .f32) (a3 : FVec Ideal S64x4096 .f32)
    (h : Cert.Pre_finite_inputs.fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ValueIdx.ix0
  dsimp only [fn, fn_part1, andi] at h0
  obtain ⟨h012, h3⟩ := IntOp.andi_eq_one.1 h0
  obtain ⟨h01, h2⟩ := IntOp.andi_eq_one.1 h012
  obtain ⟨h0', h1⟩ := IntOp.andi_eq_one.1 h01
  exact ⟨fun i => real_of_elem _ _ i (Host.reduce_andi_all _ _ _ _ _ h0' i),
    fun i => real_of_elem _ _ i (Host.reduce_andi_all _ _ _ _ _ h1 i),
    fun i => real_of_elem _ _ i (Host.reduce_andi_all _ _ _ _ _ h2 i),
    fun i => real_of_elem _ _ i (Host.reduce_andi_all _ _ _ _ _ h3 i)⟩

end Cert.RowScale

end
-- ==== Proof.SumLaw.lean ====
/-
  Sums of products of real numbers, taken in the extended reals.

  On the extended reals a factor cannot in general be moved across a sum (with infinite terms the two sides
  differ), but every entry here is a real number, and the extended-real sum of products of reals is the real sum.
  With that, scaling each row of an inner product by `w * c` before the second contraction is the same as
  scaling the finished double contraction by `c` and then by `w`.
-/
import Idealize.ShloMosaic.PureOps.Ideal

noncomputable section

open scoped BigOperators
open Idealize.ShloMosaic

namespace Cert.RowScale

/-- A finite sum of reals, taken in the extended reals, is the real sum. -/
theorem sum_coe {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The row-scaling law. With `T k = ∑ i, x i * A i k`:
    `∑ k, (T k * (w * c)) * B k = w * ((∑ k, T k * B k) * c)`, all entries real. -/
theorem scale_inside_eq_scale_outside {I K : Type*} [Fintype I] [Fintype K]
    (x : I → ℝ) (A : I → K → ℝ) (B : K → ℝ) (w c : ℝ) :
    ∑ k, ((∑ i, (x i : EReal) * (A i k : EReal)) * ((w : EReal) * (c : EReal))) * (B k : EReal)
      = (w : EReal) * ((∑ k, (∑ i, (x i : EReal) * (A i k : EReal)) * (B k : EReal)) * (c : EReal)) := by
  simp only [← EReal.coe_mul, sum_coe]
  congr 1
  rw [Finset.sum_mul, Finset.mul_sum]
  exact Finset.sum_congr rfl fun k _ => by ring

/-- The f32 word `0x40000000` is the real number 2. -/
theorem two_eq : Ideal.ofBits .f32 0x40000000#32 = ((2 : ℝ) : EReal) := by
  simp [Ideal.ofBits, Ideal.ieee, -EReal.coe_mul]
  norm_num

end Cert.RowScale

end
-- ==== Proof.Spec.lean ====
/-
  The result as ONE function of the four argument arrays, in two arrangements.

  For a token `(b, s)`, a feature `d`, the rank-64 intermediate `T k = ∑ q, x (b, s, q) * A (q, k)`, the
  token's weight `w = tw (b, s)` and the scaling literal `c` (the f32 word of 2):
    * `scaledAfter`  is `w * ((∑ k, T k * B (k, d)) * c)`  — both contractions first, then the two scalings;
    * `scaledBetween` is `∑ k, (T k * (w * c)) * B (k, d)` — the thin intermediate scaled before the second contraction.
  They agree when every entry of the four arrays is a real number (`scaledBetween_eq_scaledAfter`): moving the factor
  `w * c` across the sum over `k` is the row-scaling law, which needs finiteness on the extended reals.
-/
import Idealize.ShloMosaic.PureOps.Ideal
import Idealize.ShloMosaic.Lib.ValueIdx
import proofs.«162528_j77893526880533_2_alg».proof.Proof.SumLaw

noncomputable section

open scoped BigOperators
open Idealize.ShloMosaic Idealize.ShloMosaic.ValueIdx

namespace Cert.RowScale

/-- Both contractions, then the scaling literal, then the token's weight. -/
def scaledAfter (x : FVec Ideal ⟨3, ![8, 2048, 4096]⟩ .f32) (tw : FVec Ideal ⟨2, ![8, 2048]⟩ .f32)
    (A : FVec Ideal ⟨2, ![4096, 64]⟩ .f32) (B : FVec Ideal ⟨2, ![64, 4096]⟩ .f32) : FVec Ideal ⟨3, ![8, 2048, 4096]⟩ .f32 :=
  fun i => tw (ix2 (i 0) (i 1))
    * ((∑ k : Fin 64, (∑ q : Fin 4096, x (ix3 (i 0) (i 1) q) * A (ix2 q k)) * B (ix2 k (i 2))) * Ideal.ofBits .f32 0x40000000#32)

/-- The rank-64 intermediate scaled by the token's weight times the literal, then the second contraction. -/
def scaledBetween (x : FVec Ideal ⟨3, ![8, 2048, 4096]⟩ .f32) (tw : FVec Ideal ⟨2, ![8, 2048]⟩ .f32)
    (A : FVec Ideal ⟨2, ![4096, 64]⟩ .f32) (B : FVec Ideal ⟨2, ![64, 4096]⟩ .f32) : FVec Ideal ⟨3, ![8, 2048, 4096]⟩ .f32 :=
  fun i => ∑ k : Fin 64, ((∑ q : Fin 4096, x (ix3 (i 0) (i 1) q) * A (ix2 q k))
    * (tw (ix2 (i 0) (i 1)) * Ideal.ofBits .f32 0x40000000#32)) * B (ix2 k (i 2))

/-- On arrays of real numbers the two arrangements are one function. -/
theorem scaledBetween_eq_scaledAfter (x : FVec Ideal ⟨3, ![8, 2048, 4096]⟩ .f32) (tw : FVec Ideal ⟨2, ![8, 2048]⟩ .f32)
    (A : FVec Ideal ⟨2, ![4096, 64]⟩ .f32) (B : FVec Ideal ⟨2, ![64, 4096]⟩ .f32)
    (hx : ∀ i, ∃ r : ℝ, x i = (r : EReal)) (htw : ∀ i, ∃ r : ℝ, tw i = (r : EReal))
    (hA : ∀ i, ∃ r : ℝ, A i = (r : EReal)) (hB : ∀ i, ∃ r : ℝ, B i = (r : EReal)) :
    scaledBetween x tw A B = scaledAfter x tw A B := by
  choose x' hx using hx
  choose tw' htw using htw
  choose A' hA using hA
  choose B' hB using hB
  funext i
  unfold scaledBetween scaledAfter
  simp only [hx, htw, hA, hB, two_eq]
  exact scale_inside_eq_scale_outside (fun q => x' (ix3 (i 0) (i 1) q)) (fun q k => A' (ix2 q k))
    (fun k => B' (ix2 k (i 2))) (tw' (ix2 (i 0) (i 1))) 2

end Cert.RowScale

end
-- ==== Proof.RefValue.lean ====
/-
  The reference's result, stage by stage, is `scaledAfter` of the argument arrays.

  The reference contracts `x` with `A` over the 4096 features, contracts the result with `B` over the 64 ranks,
  multiplies by the literal 2, and multiplies by the token's weight broadcast along the features. Read at an index
  `(b, s, d)` each stage reads its operands at indices made of the same coordinates, and the composite is the
  specification's `scaledAfter` term for term.
-/
import proofs.«162528_j77893526880533_2_alg».proof.Proof.Gen.ReferenceIdeal.Read
import proofs.«162528_j77893526880533_2_alg».proof.Proof.Spec

noncomputable section

open scoped BigOperators
open Idealize.ShloMosaic Idealize.ShloMosaic.ValueIdx

namespace Cert.ReferenceIdeal.RefValue

open Cert.ReferenceIdeal Cert.ReferenceIdeal.Read Cert.RowScale

/-- The last stage of the reference, as a function of the four arguments, is `scaledAfter`. -/
theorem reference_eq_scaledAfter (x0 : FVec Ideal S8x2048x4096 .f32) (x1 : FVec Ideal S8x2048 .f32)
    (x2 : FVec Ideal S4096x64 .f32) (x3 : FVec Ideal S64x4096 .f32) :
    val_main_v6 (F := Ideal) x0 x1 x2 x3 = scaledAfter x0 x1 x2 x3 := by
  funext i
  -- the weight is read at the token's two coordinates
  have e1 : idx_main_v4 (idx_main_v5 i) = ix2 (i 0) (i 1) :=
    funext fun a => by match a with | ⟨0, _⟩ => rfl | ⟨1, _⟩ => rfl
  -- the second contraction reads `B` at (rank, feature) …
  have e2 : ∀ k : Fin 64, ridx_main_v1 i k = ix2 k (i 2) := fun k =>
    funext fun a => by match a with | ⟨0, _⟩ => rfl | ⟨1, _⟩ => rfl
  -- … and the first reads `x` at (token, contracted feature) and `A` at (contracted feature, rank)
  have e3 : ∀ (k : Fin 64) (q : Fin 4096), lidx_main_v0 (lidx_main_v1 i k) q = ix3 (i 0) (i 1) q := fun k q =>
    funext fun a => by match a with | ⟨0, _⟩ => rfl | ⟨1, _⟩ => rfl | ⟨2, _⟩ => rfl
  have e4 : ∀ (k : Fin 64) (q : Fin 4096), ridx_main_v0 (lidx_main_v1 i k) q = ix2 q k := fun k q =>
    funext fun a => by match a with | ⟨0, _⟩ => rfl | ⟨1, _⟩ => rfl
  rw [val_main_v6_apply, val_main_v5_apply, val_main_v4_apply, val_main_v3_apply, val_main_v1_apply,
    val_main_v2_apply, val_main_cst_apply]
  simp only [val_main_v0_apply, e1, e2, e3, e4]
  rfl

end Cert.ReferenceIdeal.RefValue

end
-- ==== Proof.Payload.lean ====
/-
  The kernel body's arithmetic, read at one element of the output block.

  The body casts its 256 x 4096 block of `x` to bf16 (the identity on extended reals), multiplies it with the whole
  4096 x 64 matrix `A` into a zero accumulator, multiplies row `p` of that thin product by the row's weight times the
  literal 2 (the 256 x 1 column of weights broadcast along the 64 ranks), casts again, and multiplies with the whole
  64 x 4096 matrix `B` into a zero accumulator. At row `p` and feature `d` of the block that is
    `∑ k, ((∑ j, x (p, j) * A (j, k)) * (w (p, 0) * 2)) * B (k, d)`.
  Each matrix product into a zero accumulator is the plain sum over its one contracted axis: the left operand is read at
  (output row, contracted coordinate), the right one at (contracted coordinate, output column).
-/
import proofs.«162528_j77893526880533_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.KernelIdeal.Body

open Cert.KernelIdeal Cert.KernelIdeal.Gen

/-! ## The first product: (256 x 4096) by (4096 x 64) -/

/-- The left operand's row is the output's row … -/
theorem first_lhs_row (i : S256x64.Idx) (q : dot_S256x4096_S4096x64_S256x64_1_0_0_1_n_n.contr.Idx) :
    (dot_S256x4096_S4096x64_S256x64_1_0_0_1_n_n.lhsIdx i q 0).val = (i 0).val := by
  unfold DotDims.lhsIdx
  rw [dif_neg (show ¬(0 : Fin S256x4096.rank) ∈ dot_S256x4096_S4096x64_S256x64_1_0_0_1_n_n.lhsBatch by decide),
    dif_pos (show (0 : Fin S256x4096.rank) ∈ dot_S256x4096_S4096x64_S256x64_1_0_0_1_n_n.lhsNonContracting by decide)]
  rfl
/-- … its column the contracted coordinate … -/
theorem first_lhs_col (i : S256x64.Idx) (q : dot_S256x4096_S4096x64_S256x64_1_0_0_1_n_n.contr.Idx) :
    (dot_S256x4096_S4096x64_S256x64_1_0_0_1_n_n.lhsIdx i q 1).val = (q ⟨0, by decide⟩).val :=
  dot_S256x4096_S4096x64_S256x64_1_0_0_1_n_n.lhsIdx_val_of_single rfl i q
/-- … the right operand's row the contracted coordinate … -/
theorem first_rhs_row (i : S256x64.Idx) (q : dot_S256x4096_S4096x64_S256x64_1_0_0_1_n_n.contr.Idx) :
    (dot_S256x4096_S4096x64_S256x64_1_0_0_1_n_n.rhsIdx i q 0).val = (q ⟨0, by decide⟩).val :=
  dot_S256x4096_S4096x64_S256x64_1_0_0_1_n_n.rhsIdx_val_of_single rfl i q
/-- … and its column the output's column. -/
theorem first_rhs_col (i : S256x64.Idx) (q : dot_S256x4096_S4096x64_S256x64_1_0_0_1_n_n.contr.Idx) :
    (dot_S256x4096_S4096x64_S256x64_1_0_0_1_n_n.rhsIdx i q 1).val = (i 1).val := by
  unfold DotDims.rhsIdx
  rw [dif_neg (show ¬(1 : Fin S4096x64.rank) ∈ dot_S256x4096_S4096x64_S256x64_1_0_0_1_n_n.rhsBatch by decide),
    dif_pos (show (1 : Fin S4096x64.rank) ∈ dot_S256x4096_S4096x64_S256x64_1_0_0_1_n_n.rhsNonContracting by decide)]
  rfl

/-- The first product into zero, at row `p` and rank `k`: the sum over the 4096 features. -/
theorem first_product (l : FVec Ideal S256x4096 .bf16) (r : FVec Ideal S4096x64 .bf16) (p : Fin 256) (k : Fin 64) :
    matmul dot_S256x4096_S4096x64_S256x64_1_0_0_1_n_n none l r (constant S256x64 .f32 0x00000000#32) (ix2 p k)
      = ∑ j : Fin 4096, l (ix2 p j) * r (ix2 j k) := by
  simp only [matmul]
  rw [Ideal.matmul_constant_zero_apply,
    ← Equiv.sum_comp (contrEquiv1 dot_S256x4096_S4096x64_S256x64_1_0_0_1_n_n 4096 rfl rfl).symm]
  refine Finset.sum_congr rfl fun j _ => ?_
  have hj := contrEquiv1_symm_val dot_S256x4096_S4096x64_S256x64_1_0_0_1_n_n 4096 rfl rfl j
  have el : dot_S256x4096_S4096x64_S256x64_1_0_0_1_n_n.lhsIdx (ix2 p k)
      ((contrEquiv1 dot_S256x4096_S4096x64_S256x64_1_0_0_1_n_n 4096 rfl rfl).symm j) = ix2 p j :=
    funext fun a => Fin.ext (by
      match a with
      | ⟨0, _⟩ => exact first_lhs_row _ _
      | ⟨1, _⟩ => exact (first_lhs_col _ _).trans hj)
  have er : dot_S256x4096_S4096x64_S256x64_1_0_0_1_n_n.rhsIdx (ix2 p k)
      ((contrEquiv1 dot_S256x4096_S4096x64_S256x64_1_0_0_1_n_n 4096 rfl rfl).symm j) = ix2 j k :=
    funext fun a => Fin.ext (by
      match a with
      | ⟨0, _⟩ => exact (first_rhs_row _ _).trans hj
      | ⟨1, _⟩ => exact first_rhs_col _ _)
  rw [el, er]

/-! ## The second product: (256 x 64) by (64 x 4096) -/

theorem second_lhs_row (i : S256x4096.Idx) (q : dot_S256x64_S64x4096_S256x4096_1_0_0_1_n_n.contr.Idx) :
    (dot_S256x64_S64x4096_S256x4096_1_0_0_1_n_n.lhsIdx i q 0).val = (i 0).val := by
  unfold DotDims.lhsIdx
  rw [dif_neg (show ¬(0 : Fin S256x64.rank) ∈ dot_S256x64_S64x4096_S256x4096_1_0_0_1_n_n.lhsBatch by decide),
    dif_pos (show (0 : Fin S256x64.rank) ∈ dot_S256x64_S64x4096_S256x4096_1_0_0_1_n_n.lhsNonContracting by decide)]
  rfl
theorem second_lhs_col (i : S256x4096.Idx) (q : dot_S256x64_S64x4096_S256x4096_1_0_0_1_n_n.contr.Idx) :
    (dot_S256x64_S64x4096_S256x4096_1_0_0_1_n_n.lhsIdx i q 1).val = (q ⟨0, by decide⟩).val :=
  dot_S256x64_S64x4096_S256x4096_1_0_0_1_n_n.lhsIdx_val_of_single rfl i q
theorem second_rhs_row (i : S256x4096.Idx) (q : dot_S256x64_S64x4096_S256x4096_1_0_0_1_n_n.contr.Idx) :
    (dot_S256x64_S64x4096_S256x4096_1_0_0_1_n_n.rhsIdx i q 0).val = (q ⟨0, by decide⟩).val :=
  dot_S256x64_S64x4096_S256x4096_1_0_0_1_n_n.rhsIdx_val_of_single rfl i q
theorem second_rhs_col (i : S256x4096.Idx) (q : dot_S256x64_S64x4096_S256x4096_1_0_0_1_n_n.contr.Idx) :
    (dot_S256x64_S64x4096_S256x4096_1_0_0_1_n_n.rhsIdx i q 1).val = (i 1).val := by
  unfold DotDims.rhsIdx
  rw [dif_neg (show ¬(1 : Fin S64x4096.rank) ∈ dot_S256x64_S64x4096_S256x4096_1_0_0_1_n_n.rhsBatch by decide),
    dif_pos (show (1 : Fin S64x4096.rank) ∈ dot_S256x64_S64x4096_S256x4096_1_0_0_1_n_n.rhsNonContracting by decide)]
  rfl

/-- The second product into zero, at row `p` and feature `d`: the sum over the 64 ranks. -/
theorem second_product (l : FVec Ideal S256x64 .bf16) (r : FVec Ideal S64x4096 .bf16) (p : Fin 256) (d : Fin 4096) :
    matmul dot_S256x64_S64x4096_S256x4096_1_0_0_1_n_n none l r (constant S256x4096 .f32 0x00000000#32) (ix2 p d)
      = ∑ k : Fin 64, l (ix2 p k) * r (ix2 k d) := by
  simp only [matmul]
  rw [Ideal.matmul_constant_zero_apply,
    ← Equiv.sum_comp (contrEquiv1 dot_S256x64_S64x4096_S256x4096_1_0_0_1_n_n 64 rfl rfl).symm]
  refine Finset.sum_congr rfl fun k _ => ?_
  have hk := contrEquiv1_symm_val dot_S256x64_S64x4096_S256x4096_1_0_0_1_n_n 64 rfl rfl k
  have el : dot_S256x64_S64x4096_S256x4096_1_0_0_1_n_n.lhsIdx (ix2 p d)
      ((contrEquiv1 dot_S256x64_S64x4096_S256x4096_1_0_0_1_n_n 64 rfl rfl).symm k) = ix2 p k :=
    funext fun a => Fin.ext (by
      match a with
      | ⟨0, _⟩ => exact second_lhs_row _ _
      | ⟨1, _⟩ => exact (second_lhs_col _ _).trans hk)
  have er : dot_S256x64_S64x4096_S256x4096_1_0_0_1_n_n.rhsIdx (ix2 p d)
      ((contrEquiv1 dot_S256x64_S64x4096_S256x4096_1_0_0_1_n_n 64 rfl rfl).symm k) = ix2 k d :=
    funext fun a => Fin.ext (by
      match a with
      | ⟨0, _⟩ => exact (second_rhs_row _ _).trans hk
      | ⟨1, _⟩ => exact second_rhs_col _ _)
  rw [el, er]

/-! ## The weights' column, and the payload -/

/-- The column of weights broadcast along the ranks, at row `p` and any rank, is the column's entry of row `p`. -/
theorem column_broadcast (v : FVec Ideal S256x1 .f32) (h : S256x1.Broadcasts S256x64) (p : Fin 256) (k : Fin 64) :
    broadcastTo S256x64 v h (ix2 p k) = v (ix2 p (0 : Fin 1)) :=
  broadcastTo_apply v h (ix2 p k) (ix2 p (0 : Fin 1)) fun a => by
    match a with
    | ⟨0, _⟩ => show p.val = if (256 : Nat) = 1 then 0 else p.val; rw [if_neg (by decide)]
    | ⟨1, _⟩ => show 0 = if (1 : Nat) = 1 then 0 else k.val; rw [if_pos rfl]

/-- THE PAYLOAD AT AN ELEMENT: the stored value at row `p`, feature `d` of the block, from the four loaded values. -/
theorem payload_apply (v0 : FVec Ideal S256x4096 .f32) (v3 : FVec Ideal S4096x64 .bf16) (v6 : FVec Ideal S256x1 .f32)
    (v13 : FVec Ideal S64x4096 .bf16) (p : Fin 256) (d : Fin 4096) :
    k0_pay1 (F := Ideal) v0 v3 v6 v13 (ix2 p d)
      = ∑ k : Fin 64, ((∑ j : Fin 4096, v0 (ix2 p j) * v3 (ix2 j k))
          * (v6 (ix2 p (0 : Fin 1)) * Ideal.ofBits .f32 0x40000000#32)) * v13 (ix2 k d) := by
  unfold k0_pay1
  simp only [shapeCast_self]
  refine (second_product _ _ p d).trans ?_
  refine Finset.sum_congr rfl fun k _ => ?_
  rw [truncf_apply, mulf_apply, first_product, column_broadcast]
  rfl

end Cert.KernelIdeal.Body

end
-- ==== Proof.Rows.lean ====
/-
  The kernel's result over the FLATTENED token axis, and back.

  The kernel sees `x` as a 16384 x 4096 matrix (row `b * 2048 + s` is token `(b, s)`), the weights as a 16384 x 1
  column, and `A`, `B` cast to bf16 (the identity on extended reals); `rows` is what it computes on those, one row at a
  time; its result is reshaped back to 8 x 2048 x 4096. A reshape keeps the row-major position, so element `(b, s, d)`
  of the reshaped result is element `(b * 2048 + s, d)` of `rows`, whose row reads `x` at `(b, s, ·)` and the weight at
  `(b, s)`: the composite is `scaledBetween`.
-/
import Idealize.ShloMosaic.Lib.Pipeline.Value
import proofs.«162528_j77893526880533_2_alg».proof.Proof.Spec

noncomputable section

open scoped BigOperators
open Idealize.ShloMosaic Idealize.ShloMosaic.ValueIdx

namespace Cert.RowScale

/-- Row `r`, feature `d`: the row's rank-64 intermediate scaled by the row's weight times the literal, contracted with `B`. -/
def rows (X : FVec Ideal ⟨2, ![16384, 4096]⟩ .f32) (W : FVec Ideal ⟨2, ![16384, 1]⟩ .f32)
    (A : FVec Ideal ⟨2, ![4096, 64]⟩ .bf16) (B : FVec Ideal ⟨2, ![64, 4096]⟩ .bf16) : FVec Ideal ⟨2, ![16384, 4096]⟩ .f32 :=
  fun i => ∑ k : Fin 64, ((∑ j : Fin 4096, X (ix2 (i 0) j) * A (ix2 j k))
    * (W (ix2 (i 0) (0 : Fin 1)) * Ideal.ofBits .f32 0x40000000#32)) * B (ix2 k (i 1))

/-- Flatten, compute row by row, reshape back: `scaledBetween` of the original arrays. -/
theorem reshaped_rows_eq_scaledBetween (x : FVec Ideal ⟨3, ![8, 2048, 4096]⟩ .f32) (tw : FVec Ideal ⟨2, ![8, 2048]⟩ .f32)
    (A : FVec Ideal ⟨2, ![4096, 64]⟩ .f32) (B : FVec Ideal ⟨2, ![64, 4096]⟩ .f32)
    (h0 : (⟨3, ![8, 2048, 4096]⟩ : Shape).ShapeCasts ⟨2, ![16384, 4096]⟩)
    (h1 : (⟨2, ![8, 2048]⟩ : Shape).ShapeCasts ⟨2, ![16384, 1]⟩)
    (h5 : (⟨2, ![16384, 4096]⟩ : Shape).ShapeCasts ⟨3, ![8, 2048, 4096]⟩)
    (hb : FTy.bits .bf16 < FTy.bits .f32) :
    shapeCast ⟨3, ![8, 2048, 4096]⟩
        (rows (shapeCast ⟨2, ![16384, 4096]⟩ x h0) (shapeCast ⟨2, ![16384, 1]⟩ tw h1) (truncf .bf16 A hb) (truncf .bf16 B hb)) h5
      = scaledBetween x tw A B := by
  funext i
  obtain ⟨b, s, d, rfl⟩ : ∃ (b : Fin 8) (s : Fin 2048) (d : Fin 4096), i = ix3 b s d := ⟨i 0, i 1, i 2, eq_ix3 i⟩
  have hr : b.val * 2048 + s.val < 16384 := by omega
  rw [shapeCast_apply _ h5 (ix3 b s d) (ix2 (⟨b.val * 2048 + s.val, hr⟩ : Fin 16384) d)
    (by rw [Shape.rowMajor_val_two, Shape.rowMajor_val_three]; rfl)]
  unfold rows scaledBetween
  refine Finset.sum_congr rfl fun k _ => ?_
  have hX : ∀ j : Fin 4096, shapeCast ⟨2, ![16384, 4096]⟩ x h0 (ix2 (⟨b.val * 2048 + s.val, hr⟩ : Fin 16384) j) = x (ix3 b s j) :=
    fun j => shapeCast_apply x h0 _ (ix3 b s j) (by rw [Shape.rowMajor_val_two, Shape.rowMajor_val_three]; rfl)
  have hW : shapeCast ⟨2, ![16384, 1]⟩ tw h1 (ix2 (⟨b.val * 2048 + s.val, hr⟩ : Fin 16384) (0 : Fin 1)) = tw (ix2 b s) :=
    shapeCast_apply tw h1 _ (ix2 b s) (by rw [Shape.rowMajor_val_two, Shape.rowMajor_val_two]; show b.val * 2048 + s.val = (b.val * 2048 + s.val) * 1 + 0; omega)
  show ((∑ j : Fin 4096, shapeCast ⟨2, ![16384, 4096]⟩ x h0 (ix2 (⟨b.val * 2048 + s.val, hr⟩ : Fin 16384) j) * A (ix2 j k))
      * (shapeCast ⟨2, ![16384, 1]⟩ tw h1 (ix2 (⟨b.val * 2048 + s.val, hr⟩ : Fin 16384) (0 : Fin 1)) * Ideal.ofBits .f32 0x40000000#32)) * B (ix2 k d)
    = ((∑ q : Fin 4096, x (ix3 b s q) * A (ix2 q k)) * (tw (ix2 b s) * Ideal.ofBits .f32 0x40000000#32)) * B (ix2 k d)
  rw [hW]
  simp only [hX]

end Cert.RowScale

end
-- ==== Proof.Blocks.lean ====
/-
  From the blocks the grid points write back to the whole 16384 x 4096 array.

  Grid point `t` (of 64) holds rows `256 t … 256 t + 255` of the flattened `x` and of the weights' column, and the
  whole of `A` and `B`; it writes back the same rows of the output. The body's stored value at row `p`, feature `d` of
  the block is `rows` of the arrays the region finds, at row `256 t + p`, feature `d`: so every write-back is a block
  of that ONE function, the 64 blocks tile the rows (row `r` lies in block `r / 256`), and the array after the run is
  `rows` of the arrays the region finds.
-/
import proofs.«162528_j77893526880533_2_alg».proof.Proof.Gen.KernelIdeal.Frame
import proofs.«162528_j77893526880533_2_alg».proof.Proof.Payload
import proofs.«162528_j77893526880533_2_alg».proof.Proof.Rows
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Body Cert.RowScale

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 64 points: the windows of `x`, of the weights and of the output are at block row
    `t`, block column 0; the windows of `A` and `B` stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- One element of a block's stored value, from blocks that are the stated rows of whole arrays: the same element of
    `rows` of those arrays. -/
theorem block_value (x0 : FVec Ideal S256x4096 .f32) (x1 : FVec Ideal S256x1 .f32) (x2 : FVec Ideal S4096x64 .bf16)
    (x3 : FVec Ideal S64x4096 .bf16) (X : FVec Ideal S16384x4096 .f32) (W : FVec Ideal S16384x1 .f32)
    (A : FVec Ideal S4096x64 .bf16) (B : FVec Ideal S64x4096 .bf16) (p : Fin 256) (d : Fin 4096) (r : Fin 16384)
    (hx0 : ∀ q : Fin 4096, x0 (ix2 p q) = X (ix2 r q)) (hx1 : x1 (ix2 p (0 : Fin 1)) = W (ix2 r (0 : Fin 1)))
    (hx2 : x2 = A) (hx3 : x3 = B) :
    k0_pay1 (F := Ideal) x0 x2 x1 x3 (ix2 p d) = rows X W A B (ix2 r d) := by
  rw [payload_apply, hx1, hx2, hx3]
  simp only [hx0]
  rfl

/-- WHAT POINT `t` WRITES BACK is block `t` of `rows` of the arrays as the region finds them. -/
theorem flushed_eq (c : Dev nD) (t : Fin cfg0.N) :
    (dats m 0 c).flushed 4 t = ((cfg0.win 4).blk t).view.read (Elt Ideal)
      (rows (V m c main_v0) (V m c main_v1) (V m c main_v2) (V m c main_v3)) := by
  show (cfg0.win 4).cut (grid0.coords t) ((dats m 0 c).after 4 t) = _
  rw [after0_4]
  unfold out0_4
  rw [View.canon_unit_zero hz]
  simp only [View.ld_unit_zero (S := S256x4096) hz, View.ld_unit_zero (S := S4096x64) hz,
    View.ld_unit_zero (S := S256x1) hz, View.ld_unit_zero (S := S64x4096) hz]
  obtain ⟨e00, e01, e10, e11, e20, e21, e30, e31, e40, e41⟩ := idx_facts t
  have ht : t.val < 64 := lt_of_lt_of_eq t.isLt (show cfg0.N = 64 from N_0)
  refine funext fun (j : S256x4096.Idx) => ?_
  obtain ⟨p, d, rfl⟩ : ∃ (p : Fin 256) (d : Fin 4096), j = ix2 p d := ⟨j 0, j 1, eq_ix2 j⟩
  have hr : t.val * 256 + p.val < 16384 := by have := p.isLt; omega
  show k0_pay1 (F := Ideal) (iblk m c 0 t) (iblk m c 2 t) (iblk m c 1 t) (iblk m c 3 t) (ix2 p d)
      = rows (V m c main_v0) (V m c main_v1) (V m c main_v2) (V m c main_v3) (((cfg0.win 4).blk t).view.emb (ix2 p d))
  have hout : ((cfg0.win 4).blk t).view.emb (ix2 p d) = ix2 (⟨t.val * 256 + p.val, hr⟩ : Fin 16384) d := by
    funext a; apply Fin.ext
    match a with
    | ⟨0, _⟩ => show win0_4.index t (0 : Fin 2) * 256 + 1 * p.val = t.val * 256 + p.val; rw [e40]; omega
    | ⟨1, _⟩ => show win0_4.index t (1 : Fin 2) * 4096 + 1 * d.val = d.val; rw [e41]; omega
  rw [hout]
  refine block_value (iblk m c 0 t) (iblk m c 1 t) (iblk m c 2 t) (iblk m c 3 t)
    (V m c main_v0) (V m c main_v1) (V m c main_v2) (V m c main_v3) p d ⟨t.val * 256 + p.val, hr⟩ ?_ ?_ ?_ ?_
  · intro q
    show V m c main_v0 (((cfg0.win 0).blk t).view.emb (ix2 p q)) = V m c main_v0 (ix2 (⟨t.val * 256 + p.val, hr⟩ : Fin 16384) q)
    have h : ((cfg0.win 0).blk t).view.emb (ix2 p q) = ix2 (⟨t.val * 256 + p.val, hr⟩ : Fin 16384) q := by
      funext a; apply Fin.ext
      match a with
      | ⟨0, _⟩ => show win0_0.index t (0 : Fin 2) * 256 + 1 * p.val = t.val * 256 + p.val; rw [e00]; omega
      | ⟨1, _⟩ => show win0_0.index t (1 : Fin 2) * 4096 + 1 * q.val = q.val; rw [e01]; omega
    rw [h]
  · show V m c main_v1 (((cfg0.win 1).blk t).view.emb (ix2 p (0 : Fin 1))) = V m c main_v1 (ix2 (⟨t.val * 256 + p.val, hr⟩ : Fin 16384) (0 : Fin 1))
    have h : ((cfg0.win 1).blk t).view.emb (ix2 p (0 : Fin 1)) = ix2 (⟨t.val * 256 + p.val, hr⟩ : Fin 16384) (0 : Fin 1) := by
      funext a; apply Fin.ext
      match a with
      | ⟨0, _⟩ => show win0_1.index t (0 : Fin 2) * 256 + 1 * p.val = t.val * 256 + p.val; rw [e10]; omega
      | ⟨1, _⟩ => show win0_1.index t (1 : Fin 2) * 1 + 1 * 0 = 0; rw [e11]
    rw [h]
  · refine funext fun (y : S4096x64.Idx) => ?_
    show V m c main_v2 (((cfg0.win 2).blk t).view.emb y) = V m c main_v2 y
    have h : ((cfg0.win 2).blk t).view.emb y = y := by
      funext a; apply Fin.ext
      match a with
      | ⟨0, _⟩ => show win0_2.index t (0 : Fin 2) * 4096 + 1 * (y 0).val = (y 0).val; rw [e20]; omega
      | ⟨1, _⟩ => show win0_2.index t (1 : Fin 2) * 64 + 1 * (y 1).val = (y 1).val; rw [e21]; omega
    rw [h]
  · refine funext fun (y : S64x4096.Idx) => ?_
    show V m c main_v3 (((cfg0.win 3).blk t).view.emb y) = V m c main_v3 y
    have h : ((cfg0.win 3).blk t).view.emb y = y := by
      funext a; apply Fin.ext
      match a with
      | ⟨0, _⟩ => show win0_3.index t (0 : Fin 2) * 64 + 1 * (y 0).val = (y 0).val; rw [e30]; omega
      | ⟨1, _⟩ => show win0_3.index t (1 : Fin 2) * 4096 + 1 * (y 1).val = (y 1).val; rw [e31]; omega
    rw [h]

/-- An index of the output array is in point `t`'s block iff each coordinate is in the block's range on its axis. -/
theorem mem_blk (t : Fin cfg0.N) (i : S16384x4096.Idx) :
    i ∈ ((cfg0.win 4).blk t).view.set ↔ ∀ a : Fin 2, win0_4.index t a * S256x4096.size a ≤ (i a).val
      ∧ (i a).val < win0_4.index t a * S256x4096.size a + S256x4096.size a := by
  show i ∈ ((View.whole main_v4).slice (win0_4.rect t)).set ↔ _
  rw [View.set_slice_whole, Rect.mem_set_unit]
  exact Iff.rfl

/-- Every row lies in one of the 64 blocks: row `r` in block `r / 256`. -/
theorem cover (i : S16384x4096.Idx) :
    ∃ t : Fin cfg0.N, (cfg0.win 4).flush t = true ∧ i ∈ ((cfg0.win 4).blk t).view.set := by
  have hi0 : (i 0).val < 16384 := (i 0).isLt
  have hi1 : (i 1).val < 4096 := (i 1).isLt
  have hN : cfg0.N = 64 := N_0
  obtain ⟨t, ht⟩ : ∃ t : Fin cfg0.N, t.val = (i 0).val / 256 := ⟨⟨(i 0).val / 256, by rw [hN]; omega⟩, rfl⟩
  obtain ⟨-, -, -, -, -, -, -, -, e40, e41⟩ := idx_facts t
  refine ⟨t, flush0_4 t, ?_⟩
  rw [mem_blk]
  intro a
  match a with
  | ⟨0, _⟩ =>
    show win0_4.index t (0 : Fin 2) * 256 ≤ (i 0).val ∧ (i 0).val < win0_4.index t (0 : Fin 2) * 256 + 256
    rw [e40, ht]; omega
  | ⟨1, _⟩ =>
    show win0_4.index t (1 : Fin 2) * 4096 ≤ (i 1).val ∧ (i 1).val < win0_4.index t (1 : Fin 2) * 4096 + 4096
    rw [e41]; omega

/-- THE OUTPUT ARRAY after the run: `rows` of the arrays as the region finds them. -/
theorem final (c : Dev nD) : (dats m 0 c).arrAt 4 cfg0.N
    = rows (V m c main_v0) (V m c main_v1) (V m c main_v2) (V m c main_v3) :=
  (dats m 0 c).arrAt_eq_of_cover 4 _ (fun t _ => flushed_eq m c t) cover

end Cert.KernelIdeal.Blocks

end
-- ==== Proof.KernelValue.lean ====
/-
  The kernel program's result array, as a function of its four arguments.

  Before the grid runs, the host flattens `x` to 16384 x 4096 and the weights to a 16384 x 1 column (reshapes) and casts
  `A` and `B` to bf16; after it, the host reshapes the 16384 x 4096 output back to 8 x 2048 x 4096. With the output
  array after the run known to be `rows` of what the region finds, the program's result is that reshape of `rows` of the
  reshaped and cast arguments: `scaledBetween` of the arguments.
-/
import proofs.«162528_j77893526880533_2_alg».proof.Proof.Blocks
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.Result

open Cert.KernelIdeal Cert.KernelIdeal.Gen Cert.KernelIdeal.Blocks Cert.RowScale

variable (m : (ℓ : Loc nD τ sig) → Buf (Elt Ideal) ℓ) (ρ : Dev nD → PrngReg)

/-- The region finds `x` flattened … -/
theorem entry_x (c : Dev nD) : (V m c main_v0 : S16384x4096.Idx → EReal)
    = shapeCast S16384x4096 (m ((c : Thread nD τ).loc main_arg0)) Facts₀.shapeCasts_S8x2048x4096_S16384x4096 := by
  show StableHlo.after hostOps0 (fun b => m (c, b)) (Proc.devRef .tc main_v0) = _
  after_results
  rfl
/-- … the weights as a column … -/
theorem entry_w (c : Dev nD) : (V m c main_v1 : S16384x1.Idx → EReal)
    = shapeCast S16384x1 (m ((c : Thread nD τ).loc main_arg1)) Facts₀.shapeCasts_S8x2048_S16384x1 := by
  show StableHlo.after hostOps0 (fun b => m (c, b)) (Proc.devRef .tc main_v1) = _
  after_results
  rfl
/-- … and `A`, `B` cast to bf16. -/
theorem entry_A (c : Dev nD) : @Eq (FVec Ideal S4096x64 .bf16) (V m c main_v2)
    (truncf .bf16 (m ((c : Thread nD τ).loc main_arg2) : FVec Ideal S4096x64 .f32) Facts₀.bitsLt_bf16_f32) := by
  show StableHlo.after hostOps0 (fun b => m (c, b)) (Proc.devRef .tc main_v2) = _
  after_results
theorem entry_B (c : Dev nD) : @Eq (FVec Ideal S64x4096 .bf16) (V m c main_v3)
    (truncf .bf16 (m ((c : Thread nD τ).loc main_arg3) : FVec Ideal S64x4096 .f32) Facts₀.bitsLt_bf16_f32) := by
  show StableHlo.after hostOps0 (fun b => m (c, b)) (Proc.devRef .tc main_v3) = _
  after_results

/-- The host line after the grid reshapes the output array. -/
theorem tail_eq (c : Dev nD) : Pipeline.afterTail₀ cfgs (dats m) 0 (V0 m) [hostOps1] c main_v5
    = shapeCast S8x2048x4096 ((dats m 0 c).arrAt 4 cfg0.N) Facts₀.shapeCasts_S16384x4096_S8x2048x4096 := by
  unfold Pipeline.afterTail₀
  show StableHlo.after hostOps1 _ (Proc.devRef .tc main_v5) = _
  after_results
  rw [Pipeline.withArrays_arr spec0 launch0.win.arr_inj c _ _ 4]
  rfl

/-- THE RESULT: `scaledBetween` of the four arguments. -/
theorem result_eq (c : Dev nD) : Pipeline.afterTail₀ cfgs (dats m) 0 (V0 m) [hostOps1] c main_v5
    = scaledBetween (m ((c : Thread nD τ).loc main_arg0)) (m ((c : Thread nD τ).loc main_arg1))
        (m ((c : Thread nD τ).loc main_arg2)) (m ((c : Thread nD τ).loc main_arg3)) := by
  rw [tail_eq, final, entry_x, entry_w, entry_A, entry_B]
  exact reshaped_rows_eq_scaledBetween _ _ _ _ _ _ _ _

/-- The kernel program's run, read: the result at `scaledBetween` of the arguments, the arguments unchanged. -/
theorem run : θ_run defs (onTc (τ := τ) (main (F := Ideal))) ⟨m, fun _ => 0, ρ⟩ fun r => ∀ c : Dev nD,
      r.2.mem ((c.tc : Thread nD τ).loc main_v5)
        = scaledBetween (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.lean ====
/-
  A masked low-rank update: for each of the 8 x 2048 tokens, `x` (4096 features) is contracted with `A` (4096 x 64), then
  with `B` (64 x 4096), scaled by the literal 2 and by the token's weight.

  The reference scales AFTER both contractions: `tw (b, s) * ((∑ k, (∑ q, x (b, s, q) * A (q, k)) * B (k, d)) * 2)`.
  The kernel works on the token axis flattened to 16384 rows, 256 rows per grid point, and scales the thin rank-64
  intermediate BETWEEN the contractions: `∑ k, ((∑ q, x (b, s, q) * A (q, k)) * (tw (b, s) * 2)) * B (k, d)`; its bf16
  casts are the identity on extended reals and each matrix product into a zero accumulator is the plain sum.
  The two arrangements differ by moving the factor `tw * 2` across the sum over the 64 ranks, which on the extended reals
  needs every entry to be a real number: exactly what the precondition (all four inputs finite) provides.

  Modules: SumLaw (the law, over reals inside the extended reals), Spec (the two arrangements and their equality on real
  entries), Finite (the precondition read as "every entry is real"), RefValue (the reference is the first arrangement),
  Payload (the kernel body at one element), Rows (the flattened form and its reshape back), Blocks (the 64 write-backs tile
  the output array), KernelValue (the kernel program's result is the second arrangement). Here: the five claims.
-/
import proofs.«162528_j77893526880533_2_alg».proof.Defs
import proofs.«162528_j77893526880533_2_alg».proof.Proof.Gen.Kernel
import proofs.«162528_j77893526880533_2_alg».proof.Proof.Gen.Kernel.Skeleton
import proofs.«162528_j77893526880533_2_alg».proof.Proof.Gen.Kernel.Launch
import proofs.«162528_j77893526880533_2_alg».proof.Proof.Gen.Kernel.Points
import proofs.«162528_j77893526880533_2_alg».proof.Proof.Gen.Kernel.Frame
import proofs.«162528_j77893526880533_2_alg».proof.Proof.Gen.KernelIdeal
import proofs.«162528_j77893526880533_2_alg».proof.Proof.Gen.KernelIdeal.Skeleton
import proofs.«162528_j77893526880533_2_alg».proof.Proof.Gen.KernelIdeal.Launch
import proofs.«162528_j77893526880533_2_alg».proof.Proof.Gen.KernelIdeal.Points
import proofs.«162528_j77893526880533_2_alg».proof.Proof.Gen.KernelIdeal.Frame
import proofs.«162528_j77893526880533_2_alg».proof.Proof.Gen.ReferenceIdeal
import proofs.«162528_j77893526880533_2_alg».proof.Proof.Gen.Pre_finite_inputs
import proofs.«162528_j77893526880533_2_alg».proof.Proof.Gen.ReferenceIdeal.Run
import proofs.«162528_j77893526880533_2_alg».proof.Proof.Gen.ReferenceIdeal.Read
import proofs.«162528_j77893526880533_2_alg».proof.Proof.Finite
import proofs.«162528_j77893526880533_2_alg».proof.Proof.RefValue
import proofs.«162528_j77893526880533_2_alg».proof.Proof.KernelValue
import Idealize.ShloMosaic.Adequacy
import Idealize.ShloMosaic.Init

noncomputable section

namespace Cert.Proof

open Idealize.ShloMosaic Idealize.SL.Sem

/-- The word-level kernel program runs, faults nowhere and leaves its arguments as they were. -/
theorem frame_kernel : Cert.frame_Kernel := fun m ρ _ => Cert.Kernel.Gen.frame m ρ
/-- So does the kernel program read at the extended reals. -/
theorem frame_kernel_ideal : Cert.frame_KernelIdeal := fun m ρ _ => Cert.KernelIdeal.Gen.frame m ρ
/-- The reference is a straight line of host operations; its run, with the result dropped, is its frame. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- Both programs end with the token-weighted, doubled double contraction at every `(b, s, d)`: the kernel's
    arrangement is the reference's because the inputs are real numbers. -/
theorem algebraic : Cert.algebraic_KernelIdeal_ReferenceIdeal := by
  intro m ρ m' ρ' hpre hagree
  refine ⟨fun c => Cert.RowScale.scaledAfter
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩)
      (Cert.KernelIdeal.Result.run m ρ)
    obtain ⟨hx, hw, hA, hB⟩ := Cert.RowScale.real_of_pre _ _ _ _ (hpre c)
    exact Cert.RowScale.scaledBetween_eq_scaledAfter _ _ _ _ hx hw hA hB
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v6_eq, Cert.ReferenceIdeal.RefValue.reference_eq_scaledAfter,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
